-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x8192 : Shape := ⟨2, ![8192, 8192]⟩
abbrev S512x128 : Shape := ⟨2, ![512, 128]⟩
abbrev S512x2048 : Shape := ⟨2, ![512, 2048]⟩
abbrev S2048x128 : Shape := ⟨2, ![2048, 128]⟩
abbrev S512 : Shape := ⟨1, ![512]⟩
abbrev S512x1 : Shape := ⟨2, ![512, 1]⟩
abbrev S2048 : Shape := ⟨1, ![2048]⟩
abbrev S2048x1 : Shape := ⟨2, ![2048, 1]⟩
abbrev S1x2048 : Shape := ⟨2, ![1, 2048]⟩
abbrev S128x2048 : Shape := ⟨2, ![128, 2048]⟩

abbrev nBuf : Space → Nat
  | .hbm => 2
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .local _ .vmem, ⟨0, _⟩ => ⟨S512x128, .f32⟩
  | .local _ .vmem, ⟨1, _⟩ => ⟨S512x128, .f32⟩
  | .local _ .vmem, ⟨2, _⟩ => ⟨S8192x128, .f32⟩
  | .local _ .vmem, ⟨3, _⟩ => ⟨S512x2048, .f32⟩
  | .local _ .vmem, ⟨4, _⟩ => ⟨S512x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c2048_i32 : BitVec 32 := 2048#32
  let v0 : BitVec 32 := Scalar.muli arg1 c2048_i32
  v0
def k0_off1 (i : grid0.Coords) : Fin 2 → Nat :=
  let arg1 : BitVec 32 := BitVec.ofNat 32 (i 1).val
  let c2048_i32 : BitVec 32 := 2048#32
  let v0 : BitVec 32 := Scalar.muli arg1 c2048_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S2048x128 : 0 < S2048x128.numel
  inb_S512x128_S512x128_0_0 : ∀ a, (![0, 0] : Fin 2 → Nat) a + S512x128.size a ≤ S512x128.size a
  h_S512x128 : 0 < S512x128.numel
  reduces_S512x128_S512 : S512x128.Reduces [1] S512
  shapeCasts_S512_S512x1 : S512.ShapeCasts S512x1
  reduces_S2048x128_S2048 : S2048x128.Reduces [1] S2048
  shapeCasts_S2048_S2048x1 : S2048.ShapeCasts S2048x1
  transposes_S2048x1_p1_0_S1x2048 : S2048x1.Transposes [1, 0] S1x2048
  bitsLt_bf16_f32 : FTy.bits .bf16 < FTy.bits .f32
  transposes_S2048x128_p1_0_S128x2048 : S2048x128.Transposes [1, 0] S128x2048
  broadcasts_S512x1_S512x2048 : S512x1.Broadcasts S512x2048
  broadcasts_S1x2048_S512x2048 : S1x2048.Broadcasts S512x2048
  iota_S512x1_d0_w32 : S512x1.Iotas .tc 32 [0]
  iota_S1x2048_d1_w32 : S1x2048.Iotas .tc 32 [1]
  inb_S512x2048_S512x2048_0_0 : ∀ a, (![0, 0] : Fin 2 → Nat) a + S512x2048.size a ≤ S512x2048.size a
  h_S512x2048 : 0 < S512x2048.numel
  dot_S512x128_S128x2048_S512x2048_1_0_0_1_n_n_wf : DotDims.WF S512x128 S128x2048 S512x2048 [1] [0] [0] [1] [] []
  hrank0 : 0 < grid0.rank
  k0_mult1_dvd : ∀ i : grid0.Coords, 8 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S8192x128.size a
  hwx0_0 : ∀ i : grid0.Coords, EltTy.bits .f32 = 32 ∨ (Rect.block (s := S8192x128) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x8192.size a
  hwx0_2 : ∀ i : grid0.Coords, EltTy.bits .f32 = 32 ∨ (Rect.block (s := S8192x8192) S512x2048.size (cc0_transform_2 i) (hinb0_2 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 20
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S128x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  transposes_S8192x128_S128x8192_1_0 : S8192x128.Transposes [1, 0] S128x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.WordFrame.lean ====
/-
  The pipelined tile kernel runs to the end, faults nowhere and leaves the feature array as it found it; and what
  the result array holds afterwards, tile by tile.

  The grid has 16 x 4 points. At point (I, J) the kernel is handed three buffers: the 512 rows 512 I .. 512 I + 511
  of the feature array, the WHOLE feature array (the same array a second time, fetched once and kept), and a
  512 x 2048 result buffer. It reads the 512 rows, reads rows 2048 J .. 2048 J + 2047 out of the whole array, and
  overwrites the result buffer with one tile, a pure function of the two row sets and of (I, J); the tile is then
  written back at rows 512 I, columns 2048 J of the result array.

  Both input windows look at ONE array. The array is read-only for the whole region, so its ownership is split in
  two halves, one per window; the result array is held whole. Everything else follows the usual pattern for a
  kernel whose body loads, computes and stores once: the body's triple by symbolic execution, the contents each
  staging buffer holds before and after the body at each point, and the region's run from those.
-/
import proofs.«164531_j24799141167804_2_alg».proof.Proof.Gen.Kernel.Launch
import proofs.«164531_j24799141167804_2_alg».proof.Proof.Gen.Kernel.Skeleton
import proofs.«164531_j24799141167804_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region is all of the program -/

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds the point's 512 rows at every point, fetched there or not (between
    fetches the block index does not move), provided the body leaves the rows in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The whole-array window's staging buffer holds the whole array at every point: fetched once, at the first. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- All of the 512 x 128 row buffer. -/
abbrev rRows : Rect S512x128 := Rect.unit (s := S512x128) ![0, 0] S512x128.size inb_S512x128_S512x128_0_0
/-- Rows `2048 J ..` of the whole-array buffer, at point `i = (I, J)`. -/
abbrev rCols (i : grid0.Coords) : Rect S8192x128 := Rect.unit (s := S8192x128) (k0_off1 i) S2048x128.size (k0_off1_inb i)
/-- All of the 512 x 2048 result buffer. -/
abbrev rTile : Rect S512x2048 := Rect.unit (s := S512x2048) ![0, 0] S512x2048.size inb_S512x2048_S512x2048_0_0

/-! ## What the body leaves in the result buffer -/

/-- The result buffer after the body at point `i`: its one store, of the tile computed from the 512 rows `x0` and
    from rows `2048 J ..` of the whole array `x1`. -/
def tileOut (i : grid0.Coords) (x0 : Vec F S512x128 .f32) (x1 : Vec F S8192x128 .f32) : Vec F S512x2048 .f32 :=
  View.canon [⟨rTile, k0_pay1 i (View.ld x1 (rCols i)) (View.ld x0 rRows)⟩]

/-- The one store covers the buffer. -/
theorem tile_cover (p0 : Vec F S512x2048 .f32) (y : S512x2048.Idx) :
    ∃ pc ∈ ([⟨rTile, p0⟩] : List (View.Piece (Elt F) S512x2048 .f32)), y ∈ pc.1.set :=
  View.cover_of_tiled [⟨rTile, p0⟩] S512x2048.size (by rfl) y

/-! ## The body's triple -/

set_option maxHeartbeats 1000000 in
/-- The body on whole staging buffers, the two inputs' at read contents `x0`, `x1` and the result's at anything,
    runs to the continuation holding the inputs' as they were and the result's at `tileOut`. -/
theorem sound_kernel (c : Dev nD) (E : Set ℕ) (i : grid0.Coords) (arg2 : Memref sig .tc .vmem S512x128 .f32) (harg2 : arg2.IsWhole) (arg3 : Memref sig .tc .vmem S8192x128 .f32) (harg3 : arg3.IsWhole) (arg4 : Memref sig .tc .vmem S512x2048 .f32) (harg4 : arg4.IsWhole)
    (x0 : Vec F S512x128 .f32) (x1 : Vec F S8192x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut i x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The region's proof data -/

/-- On core `c`: the arrays as the region finds them; after the body at point `t` each input's buffer at its
    block and the result's at the point's tile; the invariant the core's other scoped buffers (there are none);
    nothing owed; the feature array's ownership in two halves, one per window on it, the result array's whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileOut (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.Kernel.Tile

end
-- ==== Proof.WordRun.lean ====
/-
  The region's run: from the body obligation at every point to the whole program's run, with the feature array
  shared by two windows.

  At the region's entry the core holds each distinct array once, whole. The feature array is looked at by the row
  window and by the whole-array window; both only read it, so its ownership is cut in two halves and each window is
  given one. After the last point the halves are read back: both windows' arrays are the feature array unchanged,
  and the result array holds every tile written back.
-/
import proofs.«164531_j24799141167804_2_alg».proof.Proof.WordFrame
import proofs.«164531_j24799141167804_2_alg».proof.Proof.Gen.Kernel.Launch
import proofs.«164531_j24799141167804_2_alg».proof.Proof.Gen.Kernel.Skeleton
import proofs.«164531_j24799141167804_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, dealt among the windows -/

/-- The region's three arrays, window by window: the feature array at the left half of its ownership for the row
    window and at the right half for the whole-array window, the result array whole. -/
theorem arrays_eq' (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  unfold Dat.arrays
  rw [bigSep_W0, (arr_whole0 0).set_eq_univ, (arr_whole0 2).set_eq_univ]
  rfl

/-- The two distinct arrays behind the three windows. -/
theorem arr_image : (Finset.univ.image (Pipeline.arrRef spec0) : Finset (Ref sig .tc)) = {main_arg0, main_v0} := by decide

/-- The arrays held whole at entry split into what the windows hold: the feature array's ownership halved. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq']
  have e : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v0) ↦{fullShare} V m c main_v0)) := by
    unfold Pipeline.arrBufs
    rw [arr_image, bigSep_insert (by decide), bigSep_singleton]
    rfl
  rw [e]
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run -/

/-- The invariant at every point: the core's scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- What the run leaves: every window's array at what the write-backs of all points make of it. -/
def RunPost (r : PUnit × MemSt nD τ sig (Elt F)) : Prop :=
  ∀ c : Dev nD, ∀ w, r.2.mem (((cfgs (0 : Fin 1)).spec w).arr.view.loc (c.tc : Thread nD τ)) = (dats m 0 c).arrAt w (cfgs (0 : Fin 1)).N

set_option backward.isDefEq.respectTransparency.types false in
/-- From any memory with zero counters, every weakly fair execution of the program terminates without a fault, and
    in every final state the three windows' arrays hold what the proof data compute. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun _ _ => True)
    (hY := fun c s' => by
      iintro ⟨-, -, HSI⟩
      imodintro
      isplitr; · ipureintro; trivial
      iexact HSI)
    (hQ := fun s h c => (h c).1)

/-- info: 'Cert.Kernel.Tile.run_main' depends on axioms: [propext, Classical.choice, Quot.sound] -/
#guard_msgs in #print axioms run_main

/-! ## The frame -/

/-- The program runs to the end, faults nowhere, and the feature array ends as it began: it is the array of an
    input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans ((A_eq m c 0).trans (V_main_arg0 m c))))
    (run_main m ρ)

end Cert.Kernel.Tile

end
-- ==== Proof.IdealFrame.lean ====
/-
  The pipelined tile kernel runs to the end, faults nowhere and leaves the feature array as it found it; and what
  the result array holds afterwards, tile by tile.

  The grid has 16 x 4 points. At point (I, J) the kernel is handed three buffers: the 512 rows 512 I .. 512 I + 511
  of the feature array, the WHOLE feature array (the same array a second time, fetched once and kept), and a
  512 x 2048 result buffer. It reads the 512 rows, reads rows 2048 J .. 2048 J + 2047 out of the whole array, and
  overwrites the result buffer with one tile, a pure function of the two row sets and of (I, J); the tile is then
  written back at rows 512 I, columns 2048 J of the result array.

  Both input windows look at ONE array. The array is read-only for the whole region, so its ownership is split in
  two halves, one per window; the result array is held whole. Everything else follows the usual pattern for a
  kernel whose body loads, computes and stores once: the body's triple by symbolic execution, the contents each
  staging buffer holds before and after the body at each point, and the region's run from those.
-/
import proofs.«164531_j24799141167804_2_alg».proof.Proof.Gen.KernelIdeal.Launch
import proofs.«164531_j24799141167804_2_alg».proof.Proof.Gen.KernelIdeal.Skeleton
import proofs.«164531_j24799141167804_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region is all of the program -/

/-- Core `c`'s buffers when the region is entered: as launched. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row window's staging buffer holds the point's 512 rows at every point, fetched there or not (between
    fetches the block index does not move), provided the body leaves the rows in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The whole-array window's staging buffer holds the whole array at every point: fetched once, at the first. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- All of the 512 x 128 row buffer. -/
abbrev rRows : Rect S512x128 := Rect.unit (s := S512x128) ![0, 0] S512x128.size inb_S512x128_S512x128_0_0
/-- Rows `2048 J ..` of the whole-array buffer, at point `i = (I, J)`. -/
abbrev rCols (i : grid0.Coords) : Rect S8192x128 := Rect.unit (s := S8192x128) (k0_off1 i) S2048x128.size (k0_off1_inb i)
/-- All of the 512 x 2048 result buffer. -/
abbrev rTile : Rect S512x2048 := Rect.unit (s := S512x2048) ![0, 0] S512x2048.size inb_S512x2048_S512x2048_0_0

/-! ## What the body leaves in the result buffer -/

/-- The result buffer after the body at point `i`: its one store, of the tile computed from the 512 rows `x0` and
    from rows `2048 J ..` of the whole array `x1`. -/
def tileOut (i : grid0.Coords) (x0 : Vec F S512x128 .f32) (x1 : Vec F S8192x128 .f32) : Vec F S512x2048 .f32 :=
  View.canon [⟨rTile, k0_pay1 i (View.ld x1 (rCols i)) (View.ld x0 rRows)⟩]

/-- The one store covers the buffer. -/
theorem tile_cover (p0 : Vec F S512x2048 .f32) (y : S512x2048.Idx) :
    ∃ pc ∈ ([⟨rTile, p0⟩] : List (View.Piece (Elt F) S512x2048 .f32)), y ∈ pc.1.set :=
  View.cover_of_tiled [⟨rTile, p0⟩] S512x2048.size (by rfl) y

/-! ## The body's triple -/

set_option maxHeartbeats 1000000 in
/-- The body on whole staging buffers, the two inputs' at read contents `x0`, `x1` and the result's at anything,
    runs to the continuation holding the inputs' as they were and the result's at `tileOut`. -/
theorem sound_kernel (c : Dev nD) (E : Set ℕ) (i : grid0.Coords) (arg2 : Memref sig .tc .vmem S512x128 .f32) (harg2 : arg2.IsWhole) (arg3 : Memref sig .tc .vmem S8192x128 .f32) (harg3 : arg3.IsWhole) (arg4 : Memref sig .tc .vmem S512x2048 .f32) (harg4 : arg4.IsWhole)
    (x0 : Vec F S512x128 .f32) (x1 : Vec F S8192x128 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (tileOut i x0 x1)) -∗ K ⟨⟩))
      ⊢ wp frame (wpE (defs₀ (F := F)) Variants.none c none) E (cc0__dist_kernel i arg2 harg2 arg3 harg3 arg4 harg4) K := by
  simp only [cc0__dist_kernel_eq_skeleton]; unfold cc0__dist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (tile_cover _)

/-! ## The region's proof data -/

/-- On core `c`: the arrays as the region finds them; after the body at point `t` each input's buffer at its
    block and the result's at the point's tile; the invariant the core's other scoped buffers (there are none);
    nothing owed; the feature array's ownership in two halves, one per window on it, the result array's whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => tileOut (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = tileOut (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and
    what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

end Cert.KernelIdeal.Tile

end
-- ==== Proof.IdealRun.lean ====
/-
  The region's run: from the body obligation at every point to the whole program's run, with the feature array
  shared by two windows.

  At the region's entry the core holds each distinct array once, whole. The feature array is looked at by the row
  window and by the whole-array window; both only read it, so its ownership is cut in two halves and each window is
  given one. After the last point the halves are read back: both windows' arrays are the feature array unchanged,
  and the result array holds every tile written back.
-/
import proofs.«164531_j24799141167804_2_alg».proof.Proof.IdealFrame
import proofs.«164531_j24799141167804_2_alg».proof.Proof.Gen.KernelIdeal.Launch
import proofs.«164531_j24799141167804_2_alg».proof.Proof.Gen.KernelIdeal.Skeleton
import proofs.«164531_j24799141167804_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Tile

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry, dealt among the windows -/

/-- The region's three arrays, window by window: the feature array at the left half of its ownership for the row
    window and at the right half for the whole-array window, the result array whole. -/
theorem arrays_eq' (c : Dev nD) (G : (w : Fin cfg0.W) → Buf (Elt F) ((cfg0.win w).arr.view.loc (c.tc : Thread nD τ))) :
    ((dats m 0 c).arrays G : sProp 𝕄)
      = iprop((((c.tc : Thread nD τ).loc main_arg0) ↦{fullShare.left} G 0) ∗ (((c.tc : Thread nD τ).loc main_arg0) ↦{fullShare.right} G 1)
          ∗ (((c.tc : Thread nD τ).loc main_v0) ↦{fullShare} G 2)) := by
  unfold Dat.arrays
  rw [bigSep_W0, (arr_whole0 0).set_eq_univ, (arr_whole0 2).set_eq_univ]
  rfl

/-- The two distinct arrays behind the three windows. -/
theorem arr_image : (Finset.univ.image (Pipeline.arrRef spec0) : Finset (Ref sig .tc)) = {main_arg0, main_v0} := by decide

/-- The arrays held whole at entry split into what the windows hold: the feature array's ownership halved. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq']
  have e : (Pipeline.arrBufs (Ix := Unit) (Name := ℕ) (U := UR sig nD τ) (Lvl := ℕ) spec0 c (V m c) : sProp 𝕄)
      = iprop((((c.tc : Thread nD τ).loc main_arg0) ↦{fullShare} V m c main_arg0) ∗ (((c.tc : Thread nD τ).loc main_v0) ↦{fullShare} V m c main_v0)) := by
    unfold Pipeline.arrBufs
    rw [arr_image, bigSep_insert (by decide), bigSep_singleton]
    rfl
  rw [e]
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run -/

/-- The invariant at every point: the core's scoped buffers that are no staging buffer. -/
theorem Φ_eq (c : Dev nD) (t : Fin (cfg0.N + 1)) :
    (dats m 0 c).Φ t = Pipeline.scopedRest (Ix := Unit) (Name := ℕ) (U := UR sig nD τ) (Lvl := ℕ) (Val := Elt F) spec0 c := by
  dsimp only [dats]

/-- What the run leaves: every window's array at what the write-backs of all points make of it. -/
def RunPost (r : PUnit × MemSt nD τ sig (Elt F)) : Prop :=
  ∀ c : Dev nD, ∀ w, r.2.mem (((cfgs (0 : Fin 1)).spec w).arr.view.loc (c.tc : Thread nD τ)) = (dats m 0 c).arrAt w (cfgs (0 : Fin 1)).N

set_option backward.isDefEq.respectTransparency.types false in
/-- From any memory with zero counters, every weakly fair execution of the program terminates without a fault, and
    in every final state the three windows' arrays hold what the proof data compute. -/
theorem run_main : θ_run defs (onTc (τ := τ) (main (F := F))) (s₀ m ρ) (RunPost m) := by
  classical
  exact Pipeline.θ_run_region_noSem_shared cfgs (dats m) () cellOf_inj (0 : Fin 1) winFacts₀0 emb₁ defs₀ Variants.none m ρ main
    (hbody := fun c => (body_obligation m c).loose) (hne := block_pos0) (harr := arr_whole0) (hstage := stage_whole0)
    (howed := fun _ _ => rfl)
    (u₀ := initOf (Pipeline.cells cfgs cellOf_inj) (Pipeline.launchToks cfgs cellOf_inj))
    (hu₀ := (show (ownU _ : sProp 𝕄) ⊢ BI.own (emb₁ (initOf (Pipeline.cells cfgs cellOf_inj) (Pipeline.launchToks cfgs cellOf_inj))) from .rfl))
    (V := V m) (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H
      isplitr; · iempintro
      iexact H)
    (hin := fun c => by
      rw [Φ_eq]
      iintro ⟨-, H⟩
      iexact H)
    (hout := fun c => by
      rw [Φ_eq]
      iintro H
      isplitr; · iempintro
      iexact H)
    (QY := fun _ _ => True)
    (hY := fun c s' => by
      iintro ⟨-, -, HSI⟩
      imodintro
      isplitr; · ipureintro; trivial
      iexact HSI)
    (hQ := fun s h c => (h c).1)

/-- info: 'Cert.KernelIdeal.Tile.run_main' depends on axioms: [propext, Classical.choice, Quot.sound] -/
#guard_msgs in #print axioms run_main

/-! ## The frame -/

/-- The program runs to the end, faults nowhere, and the feature array ends as it began: it is the array of an
    input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans ((A_eq m c 0).trans (V_main_arg0 m c))))
    (run_main m ρ)

end Cert.KernelIdeal.Tile

end
-- ==== Proof.Spec.lean ====
/-
  The pairwise negative Euclidean distance matrix of the rows of an 8192 x 128 array, as one function of the array,
  entry by entry, in the two arrangements the two programs compute it in.

  For rows f_r, f_c write  |f_r|^2 = sum_k f_r[k]^2  and  <f_r, f_c> = sum_k f_r[k] f_c[k].  Both programs form
      d2(r, c) = max ((|f_r|^2 + |f_c|^2) - 2 <f_r, f_c>, 0)
  and answer  -sqrt (d2 (r, c)).  One of them writes the sign as a difference from zero and, on the diagonal r = c,
  stores zero outright instead of evaluating the formula.  The two agree wherever the squared lengths are real
  numbers: there (s + s) - 2 s = 0, sqrt 0 = 0 and -0 = 0.
-/
import Idealize.ShloMosaic.PureOps.Ideal
import Idealize.ShloMosaic.PureOps.Ideal.Laws
import Idealize.ShloMosaic.Lib.ValueIdx

noncomputable section

namespace Cert.PairDist

open Idealize.ShloMosaic Idealize.ShloMosaic.ValueIdx

/-- The input's shape: 8192 rows of 128 features. -/
abbrev SF : Shape := ⟨2, ![8192, 128]⟩
/-- The result's shape: one entry per pair of rows. -/
abbrev SO : Shape := ⟨2, ![8192, 8192]⟩

/-- The float literal 0.0. -/
abbrev zeroLit : EReal := Ideal.ofBits .f32 0x00000000#32
/-- The float literal 2.0. -/
abbrev twoLit : EReal := Ideal.ofBits .f32 0x40000000#32

/-- The squared length of row `r`. -/
def rowSq (x : SF.Idx → EReal) (r : Fin 8192) : EReal := ∑ k : Fin 128, x (ix2 r k) * x (ix2 r k)

/-- The inner product of rows `r` and `c`. -/
def rowDot (x : SF.Idx → EReal) (r c : Fin 8192) : EReal := ∑ k : Fin 128, x (ix2 r k) * x (ix2 c k)

/-- The squared distance of rows `r` and `c` by the squared-length identity, clamped at zero. -/
def d2 (x : SF.Idx → EReal) (r c : Fin 8192) : EReal :=
  max ((rowSq x r + rowSq x c) - twoLit * rowDot x r c) zeroLit

/-- The negative distance, the sign by negation: the arrangement with no special case. -/
def refForm (x : SF.Idx → EReal) : SO.Idx → EReal := fun j => -(Ideal.sqrt (d2 x (j 0) (j 1)))

/-- The negative distance, the sign as a difference from zero, and zero stored outright on the diagonal. -/
def kerForm (x : SF.Idx → EReal) : SO.Idx → EReal := fun j =>
  if (j 0).val = (j 1).val then zeroLit else zeroLit - Ideal.sqrt (d2 x (j 0) (j 1))

/-- One 512 x 2048 tile of the second arrangement, from the tile's 512 rows `a` (global rows `512 * I + p`) and
    its 2048 rows `b` (global rows `2048 * J + q`). -/
def blockForm (I J : Nat) (b : (⟨2, ![2048, 128]⟩ : Shape).Idx → EReal) (a : (⟨2, ![512, 128]⟩ : Shape).Idx → EReal)
    (p : Fin 512) (q : Fin 2048) : EReal :=
  if p.val + 512 * I = q.val + 2048 * J then zeroLit
  else zeroLit - Ideal.sqrt (max (((∑ k : Fin 128, a (ix2 p k) * a (ix2 p k)) + (∑ k : Fin 128, b (ix2 q k) * b (ix2 q k)))
      - twoLit * (∑ k : Fin 128, a (ix2 p k) * b (ix2 q k))) zeroLit)

end Cert.PairDist

end
-- ==== Proof.LibColumn.lean ====
/-
  Two layout operations read at an index given by coordinates, for a column kept after a sum along the rows'
  entries (`keepdims`): a vector `[a]` cast to the column `[a, 1]`, and a column `[a, 1]` broadcast along a new
  second axis to `[a, b]`. Both are instances of the general "layout operation read at an index" lemmas with the
  coordinates' arithmetic discharged, in the same form as the row versions the index library already has.
-/
import Idealize.ShloMosaic.Lib.Pipeline.Value
import Idealize.ShloMosaic.Lib.ValueIdx

namespace Cert.GraphConv.Column

open Idealize.ShloMosaic Idealize.ShloMosaic.ValueIdx

variable {α : Type}

/-- A vector `[a]` cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.GraphConv.Column
-- ==== Proof.LibLaneSum.lean ====
/-
  A float sum along ONE axis of a vector, read over the extended reals at an index given by coordinates: it is the
  finite sum over that axis's coordinate of the source at the index with the coordinate put back. Three forms:
  along the last axis of a matrix `[a, b]` (each row's sum), along the last axis of a rank-3 array `[a, c, b]`
  (each row's sum, slab by slab), and along the first axis of a matrix `[a, b]` (each column's sum). Each is the
  general one-axis law with the re-inserted index written by coordinates.
-/
import Idealize.ShloMosaic.PureOps.Ideal.Laws
import Idealize.ShloMosaic.Lib.ValueIdx

namespace Cert.LaneSum

open Idealize.ShloMosaic Idealize.ShloMosaic.ValueIdx

variable {φ : FTy}

/-- The sum of row `i` of a matrix: over the column coordinate. -/
theorem sum_last2 {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ d : Fin b, src (ix2 i d) := by
  refine (Ideal.multiReduction_add_single src acc h hφ hacc (ix1 i)).trans ?_
  refine Finset.sum_congr rfl fun d _ => ?_
  exact congrArg src (funext fun ax => Fin.ext (by match ax with | ⟨0, _⟩ => rfl | ⟨1, _⟩ => rfl))

/-- The sum of row `(i, j)` of a rank-3 array: over the last coordinate. -/
theorem sum_last3 {a c b : ℕ} (src : FVec Ideal ⟨3, ![a, c, b]⟩ φ) (acc : BitVec φ.bits)
    (h : (⟨3, ![a, c, b]⟩ : Shape).Reduces [2] ⟨2, ![a, c]⟩) (hφ : FKind.Formats φ) (hacc : acc = FKind.add.neutral φ hφ)
    (i : Fin a) (j : Fin c) :
    multiReduction .add [2] ⟨2, ![a, c]⟩ src acc h hφ hacc (ix2 i j) = ∑ d : Fin b, src (ix3 i j d) := by
  refine (Ideal.multiReduction_add_single src acc h hφ hacc (ix2 i j)).trans ?_
  refine Finset.sum_congr rfl fun d _ => ?_
  exact congrArg src (funext fun ax => Fin.ext (by match ax with | ⟨0, _⟩ => rfl | ⟨1, _⟩ => rfl | ⟨2, _⟩ => rfl))

/-- The sum of column `j` of a matrix: over the row coordinate. -/
theorem sum_first2 {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun ax => Fin.ext (by match ax with | ⟨0, _⟩ => rfl | ⟨1, _⟩ => rfl))

end Cert.LaneSum
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.TileValue.lean ====
/-
  The tile the second program stores at one grid point, entry by entry.

  At the grid point (I, J) the tile has 512 rows a_p (global rows 512 I + p) against 2048 rows b_q (global rows
  2048 J + q).  Its entry (p, q) is put together from four ingredients, each read here at (p, q):
    * the squared length of a_p, a sum along the row kept as a column and repeated along the columns;
    * the squared length of b_q, the same column turned into a row and repeated down the rows;
    * the inner product of a_p and b_q, the (p, q) entry of the product of the tile's rows with the transposed
      other rows, accumulated from zero;
    * the test "global row index = global column index", made on 32-bit words: both sides stay below 8192, so
      the words are equal exactly when the natural numbers p + 512 I and q + 2048 J are.
  The stored entry is zero where the test holds and 0 - sqrt (max ((|a_p|^2 + |b_q|^2) - 2 <a_p, b_q>) 0) elsewhere.
-/
import proofs.«164531_j24799141167804_2_alg».proof.Proof.Gen.KernelIdeal.Skeleton
import proofs.«164531_j24799141167804_2_alg».proof.Proof.Spec
import proofs.«164531_j24799141167804_2_alg».proof.Proof.LibColumn
import proofs.«164531_j24799141167804_2_alg».proof.Proof.LibLaneSum
import proofs.«164531_j24799141167804_2_alg».proof.Proof.LibPlainDot
import Idealize.ShloMosaic.Lib.ValueLayout
import Idealize.ShloMosaic.Lib.Pipeline.Value
import Idealize.ShloMosaic.Lib.ValueIdx
import Idealize.ShloMosaic.PureOps.Ideal.Laws

noncomputable section

namespace Cert.PairDist

open Idealize.ShloMosaic Idealize.ShloMosaic.ValueIdx Cert.KernelIdeal

/-! ## The three float ingredients -/

/-- The squared lengths of the tile's 512 rows, as a column repeated along the 2048 columns. -/
def sqRows (a : FVec Ideal S512x128 .f32) : FVec Ideal S512x2048 .f32 :=
  broadcastTo S512x2048 (shapeCast S512x1 (multiReduction .add [1] S512 (mulf a a) 0x00000000#32
    Gen.reduces_S512x128_S512 (.inl rfl) rfl) Gen.shapeCasts_S512_S512x1) Gen.broadcasts_S512x1_S512x2048

/-- The squared lengths of the 2048 other rows, as a row repeated down the 512 rows. -/
def sqCols (b : FVec Ideal S2048x128 .f32) : FVec Ideal S512x2048 .f32 :=
  broadcastTo S512x2048 (transpose S1x2048 [1, 0] (shapeCast S2048x1 (multiReduction .add [1] S2048 (mulf b b) 0x00000000#32
    Gen.reduces_S2048x128_S2048 (.inl rfl) rfl) Gen.shapeCasts_S2048_S2048x1) Gen.transposes_S2048x1_p1_0_S1x2048)
    Gen.broadcasts_S1x2048_S512x2048

/-- The inner products of the tile's rows with the other rows: the product with the transpose, from zero. -/
def gram (b : FVec Ideal S2048x128 .f32) (a : FVec Ideal S512x128 .f32) : FVec Ideal S512x2048 .f32 :=
  matmul dot_S512x128_S128x2048_S512x2048_1_0_0_1_n_n none (truncf .bf16 a Gen.bitsLt_bf16_f32)
    (transpose S128x2048 [1, 0] (truncf .bf16 b Gen.bitsLt_bf16_f32) Gen.transposes_S2048x128_p1_0_S128x2048)
    (constant S512x2048 .f32 0x00000000#32)

theorem sqRows_apply (a : FVec Ideal S512x128 .f32) (p : Fin 512) (q : Fin 2048) :
    sqRows a (ix2 p q) = ∑ k : Fin 128, a (ix2 p k) * a (ix2 p k) := by
  unfold sqRows
  refine (Cert.GraphConv.Column.broadcastTo_a1_ab_apply _ _ p q).trans ?_
  refine (Cert.GraphConv.Column.shapeCast_a_a1_apply _ _ p (0 : Fin 1)).trans ?_
  exact Cert.LaneSum.sum_last2 (mulf a a) _ _ _ _ p

theorem sqCols_apply (b : FVec Ideal S2048x128 .f32) (p : Fin 512) (q : Fin 2048) :
    sqCols b (ix2 p q) = ∑ k : Fin 128, b (ix2 q k) * b (ix2 q k) := by
  unfold sqCols
  refine (broadcastTo_1b_ab_apply _ _ p q).trans ?_
  refine (transpose_ix2_apply _ _ (0 : Fin 1) q).trans ?_
  refine (Cert.GraphConv.Column.shapeCast_a_a1_apply _ _ q (0 : Fin 1)).trans ?_
  exact Cert.LaneSum.sum_last2 (mulf b b) _ _ _ _ q

theorem gram_apply (b : FVec Ideal S2048x128 .f32) (a : FVec Ideal S512x128 .f32) (p : Fin 512) (q : Fin 2048) :
    gram b a (ix2 p q) = ∑ k : Fin 128, a (ix2 p k) * b (ix2 q k) := by
  unfold gram
  refine (Cert.PlainDot.matmul_zero_apply _ rfl none _ _ p q).trans ?_
  refine Finset.sum_congr rfl fun k _ => ?_
  exact congrArg (a (ix2 p k) * ·) (transpose_ix2_apply _ _ k q)

/-! ## The diagonal test -/

/-- The test "global row index = global column index" on 32-bit words, entry by entry. -/
def onDiag (i : grid0.Coords) : IVec S512x2048 1 :=
  cmpi .eq
    (broadcastTo S512x2048 (addi (iota .tc S512x1 32 [0] Gen.iota_S512x1_d0_w32)
      (broadcast S512x1 (Scalar.muli (BitVec.ofNat 32 (i 0).val) 512#32))) Gen.broadcasts_S512x1_S512x2048)
    (broadcastTo S512x2048 (addi (iota .tc S1x2048 32 [1] Gen.iota_S1x2048_d1_w32)
      (broadcast S1x2048 (Scalar.muli (BitVec.ofNat 32 (i 1).val) 2048#32))) Gen.broadcasts_S1x2048_S512x2048)

/-- Below 8192 nothing wraps: the two 32-bit words are equal exactly when the two natural numbers are. -/
theorem word_eq_iff (p q I J : ℕ) (hp : p < 512) (hq : q < 2048) (hI : I < 16) (hJ : J < 4) :
    BitVec.ofNat 32 p + BitVec.ofNat 32 I * 512#32 = BitVec.ofNat 32 q + BitVec.ofNat 32 J * 2048#32
      ↔ p + 512 * I = q + 2048 * J := by
  rw [← BitVec.toNat_inj]
  simp only [BitVec.toNat_add, BitVec.toNat_mul, BitVec.toNat_ofNat]
  omega

theorem onDiag_apply (i : grid0.Coords) (p : Fin 512) (q : Fin 2048) :
    onDiag i (ix2 p q) = if p.val + 512 * (i 0).val = q.val + 2048 * (i 1).val then 1#1 else 0#1 := by
  have hI : (i 0).val < 16 := (i 0).isLt
  have hJ : (i 1).val < 4 := (i 1).isLt
  unfold onDiag
  show IntOp.cmpi .eq (broadcastTo S512x2048 _ _ (ix2 p q)) (broadcastTo S512x2048 _ _ (ix2 p q)) = _
  rw [Cert.GraphConv.Column.broadcastTo_a1_ab_apply _ _ p q, broadcastTo_1b_ab_apply _ _ p q]
  show IntOp.cmpi .eq (iota .tc S512x1 32 [0] _ (ix2 p (0 : Fin 1)) + BitVec.ofNat 32 (i 0).val * 512#32)
    (iota .tc S1x2048 32 [1] _ (ix2 (0 : Fin 1) q) + BitVec.ofNat 32 (i 1).val * 2048#32) = _
  rw [iota_single_apply, iota_single_apply]
  show BitVec.ofBool (BitVec.ofNat 32 p.val + _ == BitVec.ofNat 32 q.val + _) = _
  by_cases h : p.val + 512 * (i 0).val = q.val + 2048 * (i 1).val
  · rw [if_pos h, (beq_iff_eq).2 ((word_eq_iff _ _ _ _ p.isLt q.isLt hI hJ).2 h)]; rfl
  · rw [if_neg h, (beq_eq_false_iff_ne).2 (fun e => h ((word_eq_iff _ _ _ _ p.isLt q.isLt hI hJ).1 e))]; rfl

/-! ## The stored tile -/

/-- The stored tile is the selection, by the diagonal test, between zero and the negative distance written as a
    difference from zero. -/
theorem pay_eq (i : grid0.Coords) (v3 : Vec Ideal S2048x128 .f32) (v4 : Vec Ideal S512x128 .f32) :
    Gen.k0_pay1 (F := Ideal) i v3 v4
      = select (onDiag i) (broadcast S512x2048 (Scalar.ofBits (F := Ideal) .f32 0x00000000#32))
          (subf (broadcast S512x2048 (Scalar.ofBits (F := Ideal) .f32 0x00000000#32))
            (sqrt (maximumf (subf (addf (sqRows v4) (sqCols v3))
              (mulf (broadcast S512x2048 (Scalar.ofBits (F := Ideal) .f32 0x40000000#32)) (gram v3 v4)))
              (broadcast S512x2048 (Scalar.ofBits (F := Ideal) .f32 0x00000000#32))))) := rfl

theorem pay_apply (i : grid0.Coords) (v3 : Vec Ideal S2048x128 .f32) (v4 : Vec Ideal S512x128 .f32)
    (p : Fin 512) (q : Fin 2048) :
    Gen.k0_pay1 (F := Ideal) i v3 v4 (ix2 p q) = blockForm (i 0).val (i 1).val v3 v4 p q := by
  rw [pay_eq]
  show Scalar.select (onDiag i (ix2 p q)) zeroLit
    (zeroLit - Ideal.sqrt (max ((sqRows v4 (ix2 p q) + sqCols v3 (ix2 p q)) - twoLit * gram v3 v4 (ix2 p q)) zeroLit)) = _
  rw [onDiag_apply, sqRows_apply, sqCols_apply, gram_apply]
  unfold blockForm
  by_cases h : p.val + 512 * (i 0).val = q.val + 2048 * (i 1).val
  · rw [if_pos h, if_pos h]; exact select_one _ _
  · rw [if_neg h, if_neg h]; exact select_zero _ _

end Cert.PairDist

end
-- ==== Proof.TileSpec.lean ====
/-
  One tile of the distance matrix is the matrix restricted to the tile.

  If the 512 rows handed to a tile are rows 512 I + p of the array and the 2048 rows are rows 2048 J + q, then the tile's
  entry (p, q) is the matrix's entry (512 I + p, 2048 J + q): the three sums are sums over the same entries of the array,
  and the tile's diagonal test p + 512 I = q + 2048 J is the matrix's test that the two global indices coincide.
-/
import proofs.«164531_j24799141167804_2_alg».proof.Proof.Spec

noncomputable section

namespace Cert.PairDist

open Idealize.ShloMosaic Idealize.ShloMosaic.ValueIdx

theorem blockForm_eq_kerForm (X : SF.Idx → EReal) (I J : Nat) (hI : I < 16) (hJ : J < 4)
    (b : (⟨2, ![2048, 128]⟩ : Shape).Idx → EReal) (a : (⟨2, ![512, 128]⟩ : Shape).Idx → EReal)
    (ha : ∀ (p : Fin 512) (k : Fin 128), a (ix2 p k) = X (ix2 (⟨512 * I + p.val, by have := p.isLt; omega⟩ : Fin 8192) k))
    (hb : ∀ (q : Fin 2048) (k : Fin 128), b (ix2 q k) = X (ix2 (⟨2048 * J + q.val, by have := q.isLt; omega⟩ : Fin 8192) k))
    (p : Fin 512) (q : Fin 2048) :
    blockForm I J b a p q
      = kerForm X (ix2 (⟨512 * I + p.val, by have := p.isLt; omega⟩ : Fin 8192) (⟨2048 * J + q.val, by have := q.isLt; omega⟩ : Fin 8192)) := by
  unfold blockForm kerForm d2 rowSq rowDot
  simp only [ha, hb]
  refine if_congr ?_ rfl rfl
  show p.val + 512 * I = q.val + 2048 * J ↔ 512 * I + p.val = 2048 * J + q.val
  omega

end Cert.PairDist

end
-- ==== Proof.TileArray.lean ====
/-
  The result array after the run is the distance matrix of the feature array, in the arrangement with the diagonal
  stored as zero.

  Point (I, J) of the 16 x 4 grid writes back one 512 x 2048 tile at rows 512 I, columns 2048 J. The tile is computed
  from the point's 512 rows, which are rows 512 I + p of the feature array, and from rows 2048 J + q of the whole
  array; so the tile is the matrix restricted to it. The 64 tiles cover the 8192 x 8192 result: entry (r, c) lies in
  the tile of point (r / 512, c / 2048). Hence the array ends holding the matrix.
-/
import proofs.«164531_j24799141167804_2_alg».proof.Proof.IdealRun
import proofs.«164531_j24799141167804_2_alg».proof.Proof.TileValue
import proofs.«164531_j24799141167804_2_alg».proof.Proof.TileSpec
import Idealize.ShloMosaic.Lib.Pipeline.Value

set_option maxRecDepth 16384

noncomputable section

namespace Cert.KernelIdeal.Tile

open Idealize.ShloMosaic Idealize.ShloMosaic.TcCoe Idealize.SL.Sem Idealize.ShloMosaic.ValueIdx
open Idealize.ShloMosaic.Pipeline (Dat)
open Cert.KernelIdeal Cert.KernelIdeal.Gen Cert.PairDist

variable (m : (ℓ : Loc nD τ sig) → Buf (Elt Ideal) ℓ) (ρ : Dev nD → PrngReg)

theorem hz : (![0, 0] : Fin 2 → Nat) = fun _ => 0 := funext fun a => by fin_cases a <;> rfl

/-! ## The index maps over the grid -/

/-- At point `t = (I, J)`: the row window is at block row `I`, the whole-array window at block (0, 0), the result
    window at block (I, J); and `I < 16`, `J < 4`. -/
theorem idx_facts : ∀ t : Fin cfg0.N,
    win0_0.index t (0 : Fin 2) = (grid0.coords t 0).val ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = (grid0.coords t 1).val
    ∧ (grid0.coords t 0).val < 16 ∧ (grid0.coords t 1).val < 4 :=
  (by decide +kernel : ∀ t : Fin grid0.N, _)

/-- Every block of the result is some point's. -/
theorem idx_onto : ∀ (q0 : Fin 16) (q1 : Fin 4), ∃ t : Fin cfg0.N, win0_2.index t = ![q0.val, q1.val] :=
  (by decide +kernel : ∀ (q0 : Fin 16) (q1 : Fin 4), ∃ t : Fin grid0.N, win0_2.index t = ![q0.val, q1.val])

/-! ## What a point reads -/

/-- The point's 512 rows are rows `512 I + p` of the feature array. -/
theorem rows_read (c : Dev nD) (t : Fin cfg0.N) (p : Fin 512) (k : Fin 128) :
    View.ld (iblk m c 0 t) rRows (ix2 p k)
      = V m c main_arg0 (ix2 (⟨512 * (grid0.coords t 0).val + p.val, by have := p.isLt; have := (idx_facts t).2.2.2.2.2.2.1; omega⟩ : Fin 8192) k) := by
  obtain ⟨e00, e01, -, -, -, -, hI, -⟩ := idx_facts t
  rw [View.ld_unit_zero (S := S512x128) hz]
  show V m c main_arg0 (((cfg0.win 0).blk t).view.emb (ix2 p k)) = _
  refine congrArg _ (funext fun a => Fin.ext ?_)
  match a with
  | ⟨0, _⟩ => show win0_0.index t (0 : Fin 2) * 512 + 1 * p.val = 512 * (grid0.coords t 0).val + p.val; omega
  | ⟨1, _⟩ => show win0_0.index t (1 : Fin 2) * 128 + 1 * k.val = k.val; omega

/-- The 2048 rows it takes out of the whole array are rows `2048 J + q`. -/
theorem cols_read (c : Dev nD) (t : Fin cfg0.N) (q : Fin 2048) (k : Fin 128) :
    View.ld (iblk m c 1 t) (rCols (grid0.coords t)) (ix2 q k)
      = V m c main_arg0 (ix2 (⟨2048 * (grid0.coords t 1).val + q.val, by have := q.isLt; have := (idx_facts t).2.2.2.2.2.2.2; omega⟩ : Fin 8192) k) := by
  obtain ⟨-, -, e10, e11, -, -, -, hJ⟩ := idx_facts t
  have ho := k0_off1_eq (grid0.coords t)
  have ho0 : k0_off1 (grid0.coords t) (0 : Fin 2) = 2048 * (grid0.coords t 1).val := congrFun ho 0
  have ho1 : k0_off1 (grid0.coords t) (1 : Fin 2) = 0 := congrFun ho 1
  show V m c main_arg0 (((cfg0.win 1).blk t).view.emb ((rCols (grid0.coords t)).idx (ix2 q k))) = _
  refine congrArg _ (funext fun a => Fin.ext ?_)
  match a with
  | ⟨0, _⟩ => show win0_1.index t (0 : Fin 2) * 8192 + 1 * (k0_off1 (grid0.coords t) (0 : Fin 2) + 1 * q.val) = 2048 * (grid0.coords t 1).val + q.val; omega
  | ⟨1, _⟩ => show win0_1.index t (1 : Fin 2) * 128 + 1 * (k0_off1 (grid0.coords t) (1 : Fin 2) + 1 * k.val) = k.val; omega

/-! ## What a point writes back -/

/-- Point `t` writes back block `t` of the matrix. -/
theorem flushed_eq (c : Dev nD) (t : Fin cfg0.N) :
    (dats m 0 c).flushed 2 t = ((cfg0.win 2).blk t).view.read (Elt Ideal) (kerForm (V m c main_arg0)) := by
  show (cfg0.win 2).cut (grid0.coords t) ((dats m 0 c).after 2 t) = _
  rw [after0_2]
  unfold tileOut
  rw [View.canon_unit_zero hz]
  obtain ⟨-, -, -, -, e20, e21, hI, hJ⟩ := idx_facts t
  funext j
  obtain ⟨p, q, rfl⟩ : ∃ (p : Fin 512) (q : Fin 2048), j = ix2 p q := ⟨j 0, j 1, eq_ix2 j⟩
  show k0_pay1 (F := Ideal) (grid0.coords t) (View.ld (iblk m c 1 t) (rCols (grid0.coords t))) (View.ld (iblk m c 0 t) rRows) (ix2 p q)
    = kerForm (V m c main_arg0) (((cfg0.win 2).blk t).view.emb (ix2 p q))
  refine (pay_apply _ _ _ p q).trans ?_
  refine (blockForm_eq_kerForm (V m c main_arg0) _ _ hI hJ _ _ (rows_read m c t) (cols_read m c t) p q).trans ?_
  refine congrArg _ (funext fun a => Fin.ext ?_)
  match a with
  | ⟨0, _⟩ => show 512 * (grid0.coords t 0).val + p.val = win0_2.index t (0 : Fin 2) * 512 + 1 * p.val; omega
  | ⟨1, _⟩ => show 2048 * (grid0.coords t 1).val + q.val = win0_2.index t (1 : Fin 2) * 2048 + 1 * q.val; omega

/-! ## The tiles cover the result -/

theorem mem_blk (t : Fin cfg0.N) (i : S8192x8192.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v0).slice (win0_2.rect t)).set ↔ _
  rw [View.set_slice_whole, Rect.mem_set_unit]
  exact Iff.rfl

/-- Entry (r, c) lies in the tile of point (r / 512, c / 2048). -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 512, by omega⟩ ⟨(i 1).val / 2048, by omega⟩
  have q0 : win0_2.index t (0 : Fin 2) = (i 0).val / 512 := congrFun ht 0
  have q1 : win0_2.index t (1 : Fin 2) = (i 1).val / 2048 := congrFun ht 1
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-! ## The result array, and the run read -/

/-- After the last point the result array is the matrix. -/
theorem final (c : Dev nD) : (dats m 0 c).arrAt 2 cfg0.N = kerForm (V m c main_arg0) :=
  (dats m 0 c).arrAt_eq_of_cover 2 (kerForm (V m c main_arg0)) (fun t _ => flushed_eq m c t) cover

/-- The program's run: it terminates without a fault, the result array holds the matrix of the launched feature
    array, and the feature array is unchanged. -/
theorem run_value : θ_run (defs (F := Ideal)) (onTc (τ := τ) (main (F := Ideal))) ⟨m, fun _ => 0, ρ⟩ fun r => ∀ c : Dev nD,
      r.2.mem ((c.tc : Thread nD τ).loc main_v0) = kerForm (m ((c.tc : Thread nD τ).loc main_arg0))
      ∧ r.2.mem ((c.tc : Thread nD τ).loc main_arg0) = m ((c.tc : Thread nD τ).loc main_arg0) :=
  (θ_run defs _ _).mono (fun r h c => ⟨((h c) 2).trans (final m c),
      ((h c) 0).trans (((dats m 0 c).arrAt_in 0 rfl _).trans ((A_eq m c 0).trans (V_main_arg0 m c)))⟩)
    (run_main m ρ)

end Cert.KernelIdeal.Tile

end
-- ==== Proof.RefSide.lean ====
/-
  The reference program's result, read index by index.

  The program squares the array entrywise and sums each row (the squared lengths), multiplies the array by its own
  transpose (the inner products), spreads the squared lengths along the rows and along the columns of the square
  result, and forms  -sqrt (max ((|f_r|^2 + |f_c|^2) - 2 <f_r, f_c>, 0))  at every pair (r, c).  Read at one index,
  every layout step only renames coordinates, and the row sum starts from the literal 0.0, which is the real zero.
-/
import proofs.«164531_j24799141167804_2_alg».proof.Proof.Gen.ReferenceIdeal.Read
import proofs.«164531_j24799141167804_2_alg».proof.Proof.Spec

noncomputable section

namespace Cert.PairDist

open Idealize.ShloMosaic Idealize.ShloMosaic.ValueIdx Cert.ReferenceIdeal Cert.ReferenceIdeal.Read

/-- A sum that starts from the literal 0.0 is the sum. -/
theorem ref_zero_add (y : EReal) : Ideal.ofBits .f32 0x00000000#32 + y = y := by
  rw [Ideal.ofBits_zero_f32, zero_add]

/-- The squared-length sum that reaches the entry (r, c) through the spread along the columns is row `r`'s. -/
theorem ref_idx_sq_row (r c : Fin 8192) (k : Fin 128) :
    idx_main_v1 (idx_main_v4 (idx_main_v6 (ix2 r c))) k = ix2 r k :=
  funext fun a => Fin.ext (by match a with | ⟨0, _⟩ => rfl | ⟨1, _⟩ => rfl)

/-- The squared-length sum that reaches the entry (r, c) through the spread along the rows is row `c`'s. -/
theorem ref_idx_sq_col (r c : Fin 8192) (k : Fin 128) :
    idx_main_v1 (idx_main_v5 (idx_main_v7 (ix2 r c))) k = ix2 c k :=
  funext fun a => Fin.ext (by match a with | ⟨0, _⟩ => rfl | ⟨1, _⟩ => rfl)

/-- The left factor of the `k`-th term of the product at (r, c) is entry `k` of row `r`. -/
theorem ref_idx_dot_left (r c : Fin 8192) (k : Fin 128) :
    lidx_main_v3 (ix2 r c) k = ix2 r k :=
  funext fun a => Fin.ext (by match a with | ⟨0, _⟩ => rfl | ⟨1, _⟩ => rfl)

/-- The right factor, read through the transpose, is entry `k` of row `c`. -/
theorem ref_idx_dot_right (r c : Fin 8192) (k : Fin 128) :
    idx_main_v2 (ridx_main_v3 (ix2 r c) k) = ix2 c k :=
  funext fun a => Fin.ext (by match a with | ⟨0, _⟩ => rfl | ⟨1, _⟩ => rfl)

/-- The reference's entry at the pair (r, c). -/
theorem ref_eq_apply (x0 : (⟨Cert.ReferenceIdeal.S8192x128, .f32⟩ : BufTy).Contents (Elt Ideal)) (r c : Fin 8192) :
    Cert.ReferenceIdeal.Read.val_main_v15 (F := Ideal) x0 (ix2 r c) = -(Ideal.sqrt (d2 x0 r c)) := by
  rw [val_main_v15_apply, val_main_v14_apply, val_main_v13_apply, val_main_v11_apply, val_main_v12_apply,
    val_main_cst_1_apply, val_main_v8_apply, val_main_v10_apply, val_main_v9_apply, val_main_cst_0_apply,
    val_main_v6_apply, val_main_v7_apply, val_main_v4_apply, val_main_v5_apply, val_main_v1_apply,
    val_main_v1_apply, val_main_v3_apply, val_main_cst_apply]
  simp only [val_main_v0_apply, val_main_v2_apply, ref_idx_sq_row, ref_idx_sq_col, ref_idx_dot_left,
    ref_idx_dot_right, Ideal.hostNegf_def, Ideal.negf_def, Ideal.hostUnary_sqrt_def, Ideal.maximumf_def,
    Ideal.subf_def, Ideal.addf_def, Ideal.mulf_def, Ideal.ofBits_def, ref_zero_add]
  rfl

/-- The reference's result is the arrangement with no special case. -/
theorem ref_eq (x0 : (⟨Cert.ReferenceIdeal.S8192x128, .f32⟩ : BufTy).Contents (Elt Ideal)) :
    Cert.ReferenceIdeal.Read.val_main_v15 (F := Ideal) x0 = refForm x0 := by
  funext j
  obtain ⟨r, c, rfl⟩ : ∃ r c : Fin 8192, j = ix2 r c := ⟨j 0, j 1, eq_ix2 j⟩
  exact ref_eq_apply x0 r c

end Cert.PairDist

end
-- ==== Proof.Diagonal.lean ====
/-
  The two arrangements of the negative pairwise distance agree wherever every input entry is a real number.

  Off the diagonal the only difference is the spelling of the sign: 0 - s = -s.  On the diagonal r = c the
  squared length s = |f_r|^2 is a real number (a finite sum of products of reals), the inner product of the row
  with itself is that same s, and (s + s) - 2 s = 0 in the reals; then max 0 0 = 0, sqrt 0 = 0 and -0 = 0, which
  is the zero the other arrangement stores outright.
-/
import proofs.«164531_j24799141167804_2_alg».proof.Proof.Spec

noncomputable section

namespace Cert.PairDist

open Idealize.ShloMosaic Idealize.ShloMosaic.ValueIdx

/-- The literal 0.0 denotes the real 0. -/
theorem zeroLit_eq : zeroLit = 0 := Ideal.ofBits_zero_f32

/-- The literal 2.0 denotes the real 2. -/
theorem twoLit_eq : twoLit = ((2 : ℝ) : EReal) := by
  simp [twoLit, Ideal.ofBits, Ideal.ieee, -EReal.coe_mul]; norm_num

/-- A finite sum of products of real numbers, formed in the extended reals, is the real sum of the products. -/
theorem sum_mul_coe {ι : Type*} (s : Finset ι) (a b : ι → ℝ) :
    (∑ i ∈ s, ((a i : ℝ) : EReal) * ((b i : ℝ) : EReal)) = ((∑ i ∈ s, a i * b i : ℝ) : EReal) := by
  classical
  induction s using Finset.induction_on with
  | empty => simp
  | insert i s hi ih =>
    rw [Finset.sum_insert hi, Finset.sum_insert hi, ih, ← EReal.coe_mul, ← EReal.coe_add]

/-- The squared length of a row of real entries is a real number. -/
theorem rowSq_real (x : SF.Idx → EReal) (hx : ∀ j, ∃ r : ℝ, x j = (r : EReal)) (r : Fin 8192) :
    ∃ s : ℝ, rowSq x r = (s : EReal) := by
  choose a ha using hx
  refine ⟨∑ k : Fin 128, a (ix2 r k) * a (ix2 r k), ?_⟩
  unfold rowSq
  rw [← sum_mul_coe]
  exact Finset.sum_congr rfl fun k _ => by rw [ha]

/-- The inner product of a row with itself is its squared length. -/
theorem rowDot_self (x : SF.Idx → EReal) (r : Fin 8192) : rowDot x r r = rowSq x r := rfl

/-- On the diagonal the clamped squared distance is zero. -/
theorem d2_self (x : SF.Idx → EReal) (hx : ∀ j, ∃ r : ℝ, x j = (r : EReal)) (r : Fin 8192) :
    d2 x r r = 0 := by
  obtain ⟨s, hs⟩ := rowSq_real x hx r
  unfold d2
  rw [rowDot_self, hs, twoLit_eq, zeroLit_eq, ← EReal.coe_add, ← EReal.coe_mul, ← EReal.coe_sub]
  have : s + s - 2 * s = 0 := by ring
  rw [this, EReal.coe_zero, max_self]

/-- The square root of zero is zero. -/
theorem sqrt_zero : Ideal.sqrt (0 : EReal) = 0 := by
  rw [← EReal.coe_zero, Ideal.sqrt_coe, if_neg (lt_irrefl _), Real.sqrt_zero]

/-- Entry by entry, for a pair of rows: the two spellings agree. -/
theorem entry_eq (x : SF.Idx → EReal) (hx : ∀ j, ∃ r : ℝ, x j = (r : EReal)) (r c : Fin 8192) :
    (if r.val = c.val then zeroLit else zeroLit - Ideal.sqrt (d2 x r c)) = -(Ideal.sqrt (d2 x r c)) := by
  by_cases hj : r.val = c.val
  · obtain rfl : r = c := Fin.ext hj
    rw [if_pos hj, d2_self x hx, sqrt_zero, neg_zero, zeroLit_eq]
  · rw [if_neg hj, zeroLit_eq, zero_sub]

theorem kerForm_eq_refForm (x : SF.Idx → EReal) (hx : ∀ j, ∃ r : ℝ, x j = (r : EReal)) :
    kerForm x = refForm x := by
  funext j
  exact entry_eq x hx (j 0) (j 1)

end Cert.PairDist

end
-- ==== Proof.Finite.lean ====
/-
  What the precondition says of the input, entry by entry.

  The predicate compares |x| with the literal +infinity at every entry and takes the conjunction of all the
  comparisons.  That the conjunction is true gives |x j| < +infinity at every entry j; with |x| = max x (-x) this
  rules out both infinities (max ⊤ ⊥ = ⊤ and max ⊥ ⊤ = ⊤), so every entry is a real number.
-/
import proofs.«164531_j24799141167804_2_alg».proof.Pre_finite_inputs
import proofs.«164531_j24799141167804_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PairDist

open Idealize.ShloMosaic

/-- The shape of a scalar has exactly one index. -/
instance subsingleton_scalarIdx : Subsingleton Cert.Pre_finite_inputs.S_.Idx :=
  ⟨fun _ _ => funext fun d => d.elim0⟩

/-- The literal the predicate compares with denotes +infinity. -/
theorem infLit_eq : Ideal.ofBits .f32 0x7F800000#32 = (⊤ : EReal) := by
  simp [Ideal.ofBits, Ideal.ieee]

/-- An extended real whose absolute value max a (-a) is below +infinity is a real number. -/
theorem real_of_abs_lt_top (a : EReal) (h : max a (-a) < ⊤) : ∃ r : ℝ, a = (r : EReal) := by
  induction a using EReal.rec with
  | bot => simp at h
  | top => simp at h
  | coe r => exact ⟨r, rfl⟩

theorem real_of_pre [Cert.Pre_finite_inputs.Facts] (x : FVec Ideal Cert.Pre_finite_inputs.S8192x128 .f32)
    (h : Cert.Pre_finite_inputs.fn (F := Ideal) x = fun _ => 1#1) : ∀ j, ∃ r : ℝ, x j = (r : EReal) := by
  intro j
  have h0 := congrFun h ValueIdx.ix0
  dsimp only [Cert.Pre_finite_inputs.fn] at h0
  have hj := Host.reduce_andi_all _ _ _ _ _ h0 j
  have hj' : Ideal.cmp .olt (max (x j) (-(x j))) (Ideal.ofBits .f32 0x7F800000#32) = 1#1 := hj
  rw [infLit_eq] at hj'
  have hb : BitVec.ofBool (decide (max (x j) (-(x j)) < (⊤ : EReal))) = 1#1 := hj'
  refine real_of_abs_lt_top (x j) ?_
  by_contra hn
  rw [decide_eq_false hn] at hb
  exact absurd hb (by decide)

end Cert.PairDist

end
-- ==== Proof.lean ====
/-
  The certificate of the tiled pairwise-distance kernel against its whole-array reference.

  Both programs compute, for every pair of rows f_r, f_c of the feature array,
      -sqrt (max ((|f_r|^2 + |f_c|^2) - 2 <f_r, f_c>, 0)).
  The kernel does it tile by tile on a 16 x 4 grid, rounds its operands to half width before the matrix product (a
  change of format, the identity on extended reals), writes the sign as 0 - sqrt, and stores 0 outright on the
  diagonal; the reference does it on whole arrays and negates. Off the diagonal the two entries are the same
  expression. On the diagonal the reference's entry is -sqrt (max ((s + s) - 2 s, 0)) with s = |f_r|^2, which is 0
  exactly when s is a real number: this is where the precondition (every input finite) is used.

  The three frames: each program runs to the end without a fault and leaves the feature array unchanged — for the
  two kernel programs because the array is only ever the source of the pipeline's fetches (both windows on it are
  inputs), for the reference by its run. Nothing was rewritten between the word-level kernel and its idealization.
-/
import proofs.«164531_j24799141167804_2_alg».proof.Defs
import proofs.«164531_j24799141167804_2_alg».proof.Proof.Gen.Kernel
import proofs.«164531_j24799141167804_2_alg».proof.Proof.Gen.KernelIdeal
import proofs.«164531_j24799141167804_2_alg».proof.Proof.Gen.ReferenceIdeal
import proofs.«164531_j24799141167804_2_alg».proof.Proof.Gen.Pre_finite_inputs
import proofs.«164531_j24799141167804_2_alg».proof.Proof.Gen.ReferenceIdeal.Run
import proofs.«164531_j24799141167804_2_alg».proof.Proof.Gen.ReferenceIdeal.Read
import proofs.«164531_j24799141167804_2_alg».proof.Proof.WordRun
import proofs.«164531_j24799141167804_2_alg».proof.Proof.TileArray
import proofs.«164531_j24799141167804_2_alg».proof.Proof.RefSide
import proofs.«164531_j24799141167804_2_alg».proof.Proof.Diagonal
import proofs.«164531_j24799141167804_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to the end and leaves the feature array unchanged. -/
theorem frame_p : Cert.frame_Kernel := fun m ρ _ => Cert.Kernel.Tile.frame m ρ

/-- So does its idealization. -/
theorem frame_pi : Cert.frame_KernelIdeal := fun m ρ _ => Cert.KernelIdeal.Tile.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On extended reals both programs end with the distance matrix of the feature array: the kernel's tiles assemble to
    the arrangement with a zero diagonal, the reference's operations compose to the arrangement without the special
    case, and the two are one function of a finite array. -/
theorem algebraic : Cert.algebraic_KernelIdeal_ReferenceIdeal := by
  intro m ρ m' ρ' hpre hagree
  refine ⟨fun c => Cert.PairDist.refForm (m ((c.tc : Thread Cert.KernelIdeal.nD Cert.KernelIdeal.τ).loc Cert.KernelIdeal.main_arg0)), ?_, ?_⟩
  · refine (θ_run Cert.KernelIdeal.defs _ _).mono (fun r h c => ⟨((h c).1).trans ?_, (h c).2⟩) (Cert.KernelIdeal.Tile.run_value m ρ)
    exact Cert.PairDist.kerForm_eq_refForm _ (Cert.PairDist.real_of_pre _ (hpre c))
  · refine (θ_run Cert.ReferenceIdeal.defs _ _).mono (fun _ h c => ⟨((h c).1).trans ?_, (h c).2⟩)
      (Cert.ReferenceIdeal.Value.run (F := Ideal) m' ρ')
    rw [Cert.ReferenceIdeal.Read.val_main_v15_eq, Cert.PairDist.ref_eq, hagree c]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
